-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 512]⟩ ⟨3, ![2, 256, 512]⟩ (Layout.meshBlock [2, 2, 2] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 256]⟩ ⟨2, ![256, 512]⟩ (Layout.meshBlock [2, 2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x256x512 : Shape := ⟨3, ![1, 256, 512]⟩
abbrev S_ : Shape := ⟨0, ![]⟩

class Facts : Prop where
  bcast_S_S1x256x512 : S_.BroadcastsInDim S1x256x512 (![] : Fin 0 → Fin S1x256x512.rank)
  reducesTo_S1x256x512_S_d0_1_2 : S1x256x512.ReducesTo [0, 1, 2] S_
  h_S_ : 0 < S_.numel

variable [Facts]

def fn {F : FTy → Type} [FloatOps F] (main_arg0 : FVec F S1x256x512 .f32) : IVec S_ 1 :=
  let main_v0 : FVec F S1x256x512 .f32 := Host.absf main_arg0
  let main_cst : FVec F S_ .f32 := constant S_ .f32 0x7F800000#32
  let main_v1 : FVec F S1x256x512 .f32 := broadcastInDim S1x256x512 ![] bcast_S_S1x256x512 main_cst
  let main_v2 : IVec S1x256x512 1 := cmpf .olt main_v0 main_v1
  let main_c : IVec S_ 1 := constantI S_ 1 1#1
  let main_v3 : IVec S_ 1 := (fun x v => Host.reduce IntOp.andi x v reducesTo_S1x256x512_S_d0_1_2 h_S_) main_v2 main_c
  main_v3
-- ==== Pre_finite_inputs_ReferenceIdeal.lean ====
abbrev S2x256x512 : Shape := ⟨3, ![2, 256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel

variable [Facts]

def fn {F : FTy → Type} [FloatOps F] (main_arg0 : FVec F S2x256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  main_v3
-- ==== Kernel.lean ====
abbrev S1x256x512 : Shape := ⟨3, ![1, 256, 512]⟩
abbrev S256x256 : Shape := ⟨2, ![256, 256]⟩
abbrev S_ : Shape := ⟨0, ![]⟩
abbrev S1x256x256 : Shape := ⟨3, ![1, 256, 256]⟩

abbrev nBuf : Space → Nat
  | .hbm => 2
  | .vmem => 4
  | .smem => 0
  | _ => 0

abbrev bufTy : (tb : Table) → Fin (tcTables nBuf tb) → BufTy
  | .hbm, ⟨0, _⟩ => ⟨S1x256x512, .f32⟩
  | .hbm, ⟨1, _⟩ => ⟨S256x256, .f32⟩
  | .local _ .vmem, ⟨0, _⟩ => ⟨S1x256x512, .f32⟩
  | .local _ .vmem, ⟨1, _⟩ => ⟨S256x256, .f32⟩
  | .local _ .vmem, ⟨2, _⟩ => ⟨S256x256, .bf16⟩
  | .local _ .vmem, ⟨3, _⟩ => ⟨S256x256, .bf16⟩
  | _, _ => ⟨S1x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  { ofTc nBuf bufTy 1 4 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_5 : BitVec 32 := 4#32
  let v11 : BitVec 32 := Scalar.muli v9 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_off1 (d0 : Dev nD) : Fin 3 → Nat :=
  let c0 : Index := 0#32
  let c0_10 : Index := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c256_i32 : BitVec 32 := 256#32
  let v18 : BitVec 32 := Scalar.muli v17 c256_i32
  let v20 : Index := Scalar.indexCast v18
  ![0, 0, v20.toNat]
def k0_dev2 (d0 : Dev nD) : Nat :=
  let c0_i32_15 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_14 : BitVec 32 := 4#32
  let v27 : BitVec 32 := Scalar.muli v9 c4_i32_14
  let v28 : BitVec 32 := Scalar.addi c0_i32_15 v27
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v29 : BitVec 32 := Scalar.muli v5 c2_i32_16
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v31 : BitVec 32 := Scalar.muli v8 c1_i32_17
  let v32 : BitVec 32 := Scalar.addi v30 v31
  v32.toNat
def k0_off2 (d0 : Dev nD) : Fin 3 → Nat :=
  let c0_22 : Index := 0#32
  let c0_23 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32_9 : BitVec 32 := 256#32
  let v19 : BitVec 32 := Scalar.muli v2 c256_i32_9
  let v39 : Index := Scalar.indexCast v19
  ![0, 0, v39.toNat]
abbrev stage0_0 : Fin 1 → Memref sig .tc .vmem S1x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  h_S1x256x256 : 0 < S1x256x256.numel
  shapeCasts_S1x256x256_S256x256 : S1x256x256.ShapeCasts S256x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S256x256_S256x256_0_0 : (Rect.unit (s := S256x256) ![0, 0] S256x256.size inb_S256x256_S256x256_0_0).PackedRows (EltTy.packing .bf16)
  hcc0_scratch2 : 2 + S_.numel ≤ 4
  hcc0_scratch3 : 3 + S_.numel ≤ 4
  k0_dev1_lt : ∀ d0 : Dev nD, (k0_dev1 d0) < nD
  k0_off1_inb : ∀ d0 : Dev nD, ∀ a, (k0_off1 d0) a + S1x256x256.size a ≤ S1x256x512.size a
  k0_dev2_lt : ∀ d0 : Dev nD, (k0_dev2 d0) < nD
  k0_off2_inb : ∀ d0 : Dev nD, ∀ a, (k0_off2 d0) a + S1x256x256.size a ≤ S1x256x512.size a
  hstage0_0 : ∀ j, (stage0_0 j).IsWhole
  hstage0_1 : ∀ j, (stage0_1 j).IsWhole

variable [Facts₀]

abbrev cc0_scratch2 : DmaSems sig S_ := SemArray.consecutive 2 S_ hcc0_scratch2
abbrev cc0_scratch3 : DmaSems sig S_ := SemArray.consecutive 3 S_ hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x256x512 : Shape := ⟨3, ![2, 256, 512]⟩
abbrev S_ : Shape := ⟨0, ![]⟩
abbrev S256x512 : Shape := ⟨2, ![256, 512]⟩

abbrev nBuf : Space → Nat
  | .hbm => 3
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S_, .f32⟩
  | .hbm, ⟨2, _⟩ => ⟨S256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S2x256x512_S256x512_d0 : S2x256x512.ReducesTo [0] S256x512
  h_S_ : 0 < S_.numel

variable [Facts₀]

class Facts : Prop extends Facts₀ where

variable [Facts]
-- ==== Proof.Kernel.Proto.lean ====
/-
  The reduce-scatter exchange on the mesh x=2, y=2, z=2, as a protocol over semaphore cells.

  Device `c` and its peer `peer c` (the device whose x coordinate is flipped, `(c + 4) mod 8`) hold the two
  halves x[0], x[1] of the argument. Each device keeps the column half its own x coordinate names and sends the
  other column half, rounded to bf16, into the peer's receive buffer; the result is the kept half plus the half
  received. Three cells per device, one round each, one duty each:
  * the barrier cell: one unit, paid by the peer's signal, which hands over the peer's receive buffer and the
    fact that the peer's receive cell is at round 0 (what a copy into that buffer needs);
  * the send cell: the copy's credit, paid when the send buffer has been read; it hands the send buffer back;
  * the receive cell: the copy's credit, paid by the peer's copy; it hands over the receive buffer holding the
    peer's rounded half.
  A device waits on its barrier cell (level 1) while it still owes the peer's receive cell (level 2): the only
  wait made while owing, and it is below what is owed.
-/
import proofs.«900390_g7700000000000391_dist_rs_v7x_xyz2x2x2_x_m256_n256_bf16_1_alg».proof.Proof.Gen.Kernel
import proofs.«900390_g7700000000000391_dist_rs_v7x_xyz2x2x2_x_m256_n256_bf16_1_alg».proof.Proof.Gen.Kernel.Skeleton
import proofs.«900390_g7700000000000391_dist_rs_v7x_xyz2x2x2_x_m256_n256_bf16_1_alg».proof.Proof.Gen.Kernel.Launch
import proofs.«900390_g7700000000000391_dist_rs_v7x_xyz2x2x2_x_m256_n256_bf16_1_alg».proof.Proof.Gen.Kernel.Points
import proofs.«900390_g7700000000000391_dist_rs_v7x_xyz2x2x2_x_m256_n256_bf16_1_alg».proof.Proof.Gen.Kernel.Frame
import Idealize.ShloMosaic.Lib.Pipeline.Launch
import Idealize.ShloMosaic.Lib.Pipeline.Kit
import Idealize.ShloMosaic.Lib.Tactic

noncomputable section

namespace Cert.Kernel.Exchange

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the exchange's own -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The peer: the device across the x axis -/

def peer (c : Dev nD) : Dev nD := ⟨(c.val + 4) % 8, Nat.mod_lt _ (by decide)⟩

theorem peer_peer (c : Dev nD) : peer (peer c) = c := by revert c; decide
theorem peer_ne (c : Dev nD) : peer c ≠ c := by revert c; decide

/-- Both device ids the body computes (the signal's and the copy's) are the peer. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

def flip : Dev nD ≃ Dev nD := ⟨peer, peer, peer_peer, peer_peer⟩

/-! ## The memrefs and cells -/

abbrev xM : Memref sig .tc .vmem S1x256x512 .f32 := Memref.whole cc0_stg0_0
abbrev oM : Memref sig .tc .vmem S256x256 .f32 := Memref.whole cc0_stg1_0
abbrev sM : Memref sig .tc .vmem S256x256 .bf16 := Memref.whole cc0_scratch0
abbrev rM : Memref sig .tc .vmem S256x256 .bf16 := Memref.whole cc0_scratch1

abbrev barS : Sem sig := (SemArray.scalar (sig.barrier 0 rfl) : Sems sig S_).sem
abbrev sendS : DmaSems sig S_ := cc0_scratch2
abbrev recvS : DmaSems sig S_ := cc0_scratch3

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores as the launch indexes them: send, receive; -/
abbrev osem : Fin 2 → SemLoc sig := fun | 0 => .dma sendS.sem | 1 => .dma recvS.sem
/-- all three of the exchange: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (rM : Memref sig .tc .vmem S256x256 .bf16).view.dmaCredit
theorem N_pos : 0 < N := View.dmaCredit_pos _ (by decide)

/-! ## Contents -/

/-- Device `c`'s half of the argument, as staged. -/
def xstg (c : Dev nD) : (cc0_stg0_0 : Ref sig .tc).ty.Contents (Elt F) :=
  (win0_0.blk (0 : Fin 1)).view.read (Elt F) ((s₀ m ρ).mem ((c : Thread nD τ).loc main_arg0))

/-- The columns a device sends (the half its peer keeps) and the columns it keeps. -/
abbrev rSend (c : Dev nD) : Rect S1x256x512 := Rect.unit (s := S1x256x512) (k0_off1 c) S1x256x256.size (k0_off1_inb c)
abbrev rKeep (c : Dev nD) : Rect S1x256x512 := Rect.unit (s := S1x256x512) (k0_off2 c) S1x256x256.size (k0_off2_inb c)

/-- What device `c` puts in its send buffer: the sent columns of its half, rounded. -/
def sent (c : Dev nD) : (cc0_scratch0 : Ref sig .tc).ty.Contents (Elt F) :=
  k0_pay2 ((xM : Memref sig .tc .vmem S1x256x512 .f32).view.readAt (Elt F) (rSend c).toLoadRect (xstg m ρ c))

/-- What lands in device `c`'s receive buffer: what its peer sent. -/
def landed (c : Dev nD) : Buf (Elt F) ((rM : Memref sig .tc .vmem S256x256 .bf16).view.loc (c : Thread nD τ)) := sent m ρ (peer c)

/-- The result on device `c`: the kept columns of its half plus what landed. -/
def outAt (c : Dev nD) : (cc0_stg1_0 : Ref sig .tc).ty.Contents (Elt F) :=
  k0_pay1 ((xM : Memref sig .tc .vmem S1x256x512 .f32).view.readAt (Elt F) (rKeep c).toLoadRect (xstg m ρ c)) (landed m ρ c)

def sPts (c : Dev nD) (f : Buf (Elt F) ((sM : Memref sig .tc .vmem S256x256 .bf16).view.loc (c : Thread nD τ))) : sProp 𝕄 :=
  (sM : Memref sig .tc .vmem S256x256 .bf16).view.loc (c : Thread nD τ) ↦[(sM : Memref sig .tc .vmem S256x256 .bf16).view.set]{fullShare} f
def rPts (c : Dev nD) (f : Buf (Elt F) ((rM : Memref sig .tc .vmem S256x256 .bf16).view.loc (c : Thread nD τ))) : sProp 𝕄 :=
  (rM : Memref sig .tc .vmem S256x256 .bf16).view.loc (c : Thread nD τ) ↦[(rM : Memref sig .tc .vmem S256x256 .bf16).view.set]{fullShare} f

instance sPts_storable (c : Dev nD) (f) : BI.Storable (upEmb : UEmb _ 𝕄) (sPts (F := F) c f) := by unfold sPts; infer_instance
instance rPts_storable (c : Dev nD) (f) : BI.Storable (upEmb : UEmb _ 𝕄) (rPts (F := F) c f) := by unfold rPts; infer_instance

theorem sPts_eq (c : Dev nD) (f : Buf (Elt F) ((c : Thread nD τ).loc cc0_scratch0)) :
    sPts c f = (((c : Thread nD τ).loc cc0_scratch0) ↦{fullShare} f : sProp 𝕄) := by unfold sPts; rw [View.set_whole]
theorem rPts_eq (c : Dev nD) (f : Buf (Elt F) ((c : Thread nD τ).loc cc0_scratch1)) :
    rPts c f = (((c : Thread nD τ).loc cc0_scratch1) ↦{fullShare} f : sProp 𝕄) := by unfold rPts; rw [View.set_whole]

/-- A whole-buffer copy overwrites the destination with the source. -/
theorem copied_eq (c : Dev nD) (fd : Buf (Elt F) ((rM : Memref sig .tc .vmem S256x256 .bf16).view.loc (c : Thread nD τ)))
    (fs : (cc0_scratch0 : Ref sig .tc).ty.Contents (Elt F)) :
    (rM : Memref sig .tc .vmem S256x256 .bf16).view.write (Elt F) fd ((sM : Memref sig .tc .vmem S256x256 .bf16).view.read (Elt F) fs) Finset.univ = fs := by
  show (View.whole cc0_scratch1).write (Elt F) fd ((View.whole cc0_scratch0).read (Elt F) fs) Finset.univ = fs
  rw [View.read_whole]
  exact View.write_whole_univ _ _ _

/-! ## The schedule -/

/-- What device `p`'s signal hands its peer: `p`'s receive buffer, and that `p`'s receive cell is at round 0
    (what a copy into that buffer needs). A barrier cell's payload is this of its owner's peer. -/
def barPay (p : Dev nD) : sProp 𝕄 := iprop((∃ f, rPts p f) ∗ reached ER (recvCell p) 0)
def recvPay (c : Dev nD) : sProp 𝕄 := rPts c (landed m ρ c)
def sendPay (c : Dev nD) : sProp 𝕄 := sPts c (sent m ρ c)

abbrev IsCell (g : GSem nD τ sig) : Prop := g.1.2 = .tc ∧ (g.2 = .reg barS ∨ g.2 = .dma sendS.sem ∨ g.2 = .dma recvS.sem)

/-- One round, one duty per cell: a barrier cell one unit, a send or receive cell the copy's credit. -/
def sched : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay (peer g.1.1)
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m ρ).payload g r d) := by
  show BI.Storable upEmb (if g.2 = .reg barS then barPay (peer g.1.1) else if g.2 = .dma recvS.sem then recvPay m ρ g.1.1
    else if g.2 = .dma sendS.sem then sendPay m ρ g.1.1 else iprop(emp))
  unfold barPay recvPay sendPay
  (repeat' split) <;> infer_instance

section Tables
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (sched (F := F) m ρ).duties (barCell c) 0 = {()} := by dsimp only [sched]; exact if_pos ⟨rfl, rfl, .inl rfl⟩
theorem duties_send : (sched (F := F) m ρ).duties (sendCell c) 0 = {()} := by dsimp only [sched]; exact if_pos ⟨rfl, rfl, .inr (.inl rfl)⟩
theorem duties_recv : (sched (F := F) m ρ).duties (recvCell c) 0 = {()} := by dsimp only [sched]; exact if_pos ⟨rfl, rfl, .inr (.inr rfl)⟩
theorem duties_later (g : GSem nD τ sig) : ∀ r, 1 ≤ r → (sched (F := F) m ρ).duties g r = ∅ :=
  fun r hr => by dsimp only [sched]; rw [if_neg fun h => by omega]

theorem amount_bar (d : Unit) : (sched (F := F) m ρ).amount (barCell c) 0 d = 1 := by dsimp only [sched]; exact if_pos rfl
theorem amount_send (d : Unit) : (sched (F := F) m ρ).amount (sendCell c) 0 d = N := by dsimp only [sched]; exact if_neg send_ne_bar
theorem amount_recv (d : Unit) : (sched (F := F) m ρ).amount (recvCell c) 0 d = N := by dsimp only [sched]; exact if_neg recv_ne_bar

theorem expect_bar : (sched (F := F) m ρ).expect (barCell c) 0 = 1 := by
  unfold Schedule.expect Schedule.amountOf; rw [duties_bar, Finset.sum_singleton, amount_bar]
theorem expect_send : (sched (F := F) m ρ).expect (sendCell c) 0 = N := by
  unfold Schedule.expect Schedule.amountOf; rw [duties_send, Finset.sum_singleton, amount_send]
theorem expect_recv : (sched (F := F) m ρ).expect (recvCell c) 0 = N := by
  unfold Schedule.expect Schedule.amountOf; rw [duties_recv, Finset.sum_singleton, amount_recv]

theorem payload_bar (d : Unit) : (sched (F := F) m ρ).payload (barCell c) 0 d = barPay (peer c) := by dsimp only [sched]; rw [if_pos rfl]
theorem payload_send (d : Unit) : (sched (F := F) m ρ).payload (sendCell c) 0 d = sendPay m ρ c := by
  dsimp only [sched]; rw [if_neg send_ne_bar, if_neg send_ne_recv, if_pos rfl]
theorem payload_recv (d : Unit) : (sched (F := F) m ρ).payload (recvCell c) 0 d = recvPay m ρ c := by
  dsimp only [sched]; rw [if_neg recv_ne_bar, if_pos rfl]

theorem rest_bar : bigSep ((sched (F := F) m ρ).duties (barCell c) 0 \ ∅) (fun d => (sched (F := F) m ρ).payload (barCell c) 0 d) = barPay (peer c) := by
  rw [Finset.sdiff_empty, duties_bar, bigSep_singleton, payload_bar]
theorem rest_send : bigSep ((sched (F := F) m ρ).duties (sendCell c) 0 \ ∅) (fun d => (sched (F := F) m ρ).payload (sendCell c) 0 d) = sendPay m ρ c := by
  rw [Finset.sdiff_empty, duties_send, bigSep_singleton, payload_send]
theorem rest_recv : bigSep ((sched (F := F) m ρ).duties (recvCell c) 0 \ ∅) (fun d => (sched (F := F) m ρ).payload (recvCell c) 0 d) = recvPay m ρ c := by
  rw [Finset.sdiff_empty, duties_recv, bigSep_singleton, payload_recv]

end Tables

/-! ## What each device owes at launch; the levels -/

/-- Device `c` owes its peer's receive cell the copy's credit and its peer's barrier cell one unit (the signal, made
    first, is the last summand). -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

/-- A wait on a staging semaphore (level 0) is below everything a device can owe. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

/-- At its barrier wait a device owes only its peer's receive credit: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The ghost state a device starts from, and the pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The invariants device `c`'s body opens, at the names `K` the launch allocated: its own three cells, its peer's
    barrier cell (its signal) and its peer's receive cell (its copy). -/
def invs (K : Dev nD × Fin 3 → ℕ) (c : Dev nD) : sProp 𝕄 :=
  iprop(cellInv ER (sched m ρ) (K (c, 0)) (barCell c) ∗ cellInv ER (sched m ρ) (K (c, 1)) (sendCell c) ∗ cellInv ER (sched m ρ) (K (c, 2)) (recvCell c)
    ∗ cellInv ER (sched m ρ) (K (peer c, 0)) (barCell (peer c)) ∗ cellInv ER (sched m ρ) (K (peer c, 2)) (recvCell (peer c)))

instance invs_persistent (K : Dev nD × Fin 3 → ℕ) (c : Dev nD) : BI.Persistent (invs m ρ K c) := by unfold invs; infer_instance

/-- The invariants; the device's positions at round 0 of its three cells; round 0 reached on the cells it pays and on its
    own send and receive cells; the three duty tokens it pays with. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What a body starts from: the ghost state at some names, the credit for the two cells others pay, the levels. -/
def start (c : Dev nD) : sProp 𝕄 :=
  iprop((∃ K, ghost m ρ K c) ∗ cred (tallyAt (barCell c) () 1) ∗ cred (tallyAt (recvCell c) () N) ∗ levAts L lv)

def Φ₀ (c : Dev nD) : sProp 𝕄 := iprop(start m ρ c ∗ (∃ f, sPts c f) ∗ (∃ f, rPts c f))
/-- After the point: the two scratch buffers, and the two own cells closed at zero. -/
def Φ₁ (c : Dev nD) : sProp 𝕄 := iprop((∃ f, sPts c f) ∗ (∃ f, rPts c f) ∗ semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.Kernel.Exchange

end
-- ==== Proof.Kernel.Body.lean ====
/-
  One device's body, at a symbolic device `c`: signal the peer's barrier cell (handing over the own receive buffer),
  round the sent columns into the send buffer, wait for the peer's signal (the peer's receive buffer comes with it),
  copy the send buffer into the peer's receive buffer, wait for the peer's copy (the receive buffer now holds the
  peer's rounded columns), add them to the kept columns and store, wait for the own copy's source to be read.
-/
import proofs.«900390_g7700000000000391_dist_rs_v7x_xyz2x2x2_x_m256_n256_bf16_1_alg».proof.Proof.Kernel.Proto

noncomputable section

namespace Cert.Kernel.Exchange

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 3 → ℕ)

def bodyPre (c : Dev nD) : sProp 𝕄 :=
  iprop((ghost m ρ K c ∗ cred (tallyAt (barCell c) () 1) ∗ cred (tallyAt (recvCell c) () N) ∗ levAts L lv ∗ (∃ f, sPts c f) ∗ (∃ f, rPts c f))
    ∗ (dats m ρ 0 c).owesAt () t₀.castSucc
    ∗ (∃ d, owns (c : Thread nD τ) (xM : Memref sig .tc .vmem S1x256x512 .f32) fullShare ((dats m ρ 0 c).before (0 : Fin 2) t₀ d))
    ∗ (∃ d, owns (c : Thread nD τ) (oM : Memref sig .tc .vmem S256x256 .f32) fullShare ((dats m ρ 0 c).before (1 : Fin 2) t₀ d)))

def bodyPost (c : Dev nD) : sProp 𝕄 :=
  iprop(Φ₁ (F := F) c ∗ (dats m ρ 0 c).owesAt () t₀.succ ∗ owns (c : Thread nD τ) (xM : Memref sig .tc .vmem S1x256x512 .f32) fullShare (xstg m ρ c)
    ∗ owns (c : Thread nD τ) (oM : Memref sig .tc .vmem S256x256 .f32) fullShare (outAt m ρ c))

theorem barPay_eq (p : Dev nD) : (barPay (F := F) p) = iprop((∃ f, rPts p f) ∗ reached ER (recvCell p) 0) := rfl
theorem recvPay_eq (c : Dev nD) : recvPay m ρ c = rPts c (landed m ρ c) := rfl
theorem sendPay_eq (c : Dev nD) : sendPay m ρ c = sPts c (sent m ρ c) := rfl
theorem sPts_def (c : Dev nD) (f) : sPts (F := F) c f =
  ((sM : Memref sig .tc .vmem S256x256 .bf16).view.loc (c : Thread nD τ) ↦[(sM : Memref sig .tc .vmem S256x256 .bf16).view.set]{fullShare} f : sProp 𝕄) := rfl
theorem rPts_def (c : Dev nD) (f) : rPts (F := F) c f =
  ((rM : Memref sig .tc .vmem S256x256 .bf16).view.loc (c : Thread nD τ) ↦[(rM : Memref sig .tc .vmem S256x256 .bf16).view.set]{fullShare} f : sProp 𝕄) := rfl

attribute [local sl_rounds] duties_bar duties_send duties_recv amount_bar amount_send amount_recv expect_bar expect_send expect_recv
  payload_bar payload_send payload_recv barPay_eq recvPay_eq sendPay_eq sPts_def rPts_def peer_peer

abbrev r0 : Rect S256x256 := Rect.unit (s := S256x256) ![0, 0] S256x256.size inb_S256x256_S256x256_0_0

theorem hz : (![0, 0] : Fin 2 → Nat) = fun _ => 0 := funext fun a => by fin_cases a <;> rfl

/-- One store through the whole send buffer leaves what was stored. -/
theorem write_send (f w : (cc0_scratch0 : Ref sig .tc).ty.Contents (Elt F)) :
    ((sM : Memref sig .tc .vmem S256x256 .bf16).access r0 : View sig .tc _ _ _).write (Elt F) f w Finset.univ = w :=
  Memref.write_access_unit_zero_univ (Elt F) cc0_scratch0 hz _ f w
theorem write_out (f w : (cc0_stg1_0 : Ref sig .tc).ty.Contents (Elt F)) :
    ((oM : Memref sig .tc .vmem S256x256 .f32).access r0 : View sig .tc _ _ _).write (Elt F) f w Finset.univ = w :=
  Memref.write_access_unit_zero_univ (Elt F) cc0_stg1_0 hz _ f w
/-- One store through the whole result buffer leaves what was stored. -/
theorem outstored_eq (f w : (cc0_stg1_0 : Ref sig .tc).ty.Contents (Elt F)) :
    (oM : Memref sig .tc .vmem S256x256 .f32).view.writes (Elt F) f [⟨r0, w⟩] = w :=
  write_out f w
/-- A load of the whole receive buffer reads what landed. -/
theorem read_landed (c : Dev nD) :
    (rM : Memref sig .tc .vmem S256x256 .bf16).view.readAt (Elt F) r0.toLoadRect (landed m ρ c) = landed m ρ c :=
  Memref.readAt_unit_zero (Elt F) cc0_scratch1 hz _ _
theorem stored_eq (c : Dev nD) (f : Buf (Elt F) ((sM : Memref sig .tc .vmem S256x256 .bf16).view.loc (c : Thread nD τ)))
    (w : (cc0_scratch0 : Ref sig .tc).ty.Contents (Elt F)) :
    (sM : Memref sig .tc .vmem S256x256 .bf16).view.writes (Elt F) f [⟨r0, w⟩] = w :=
  write_send f w

/-- The copy, addressed to a device `n` that is the peer: the send buffer (holding the rounded columns) goes to the
    send cell's duty and comes back with it; the peer's receive buffer, overwritten with those columns, goes to the
    peer's receive cell's duty; the device's debt to that cell is paid and it is credited its own send cell. -/
theorem wp_copy_to_peer (c n : Dev nD) (hn : n = peer c)
    {hsc : (rM : Memref sig (Dev.tc n : Thread nD τ).2.kind .vmem S256x256 .bf16).view.ref.isScScratch = false}
    {hsrc : (sM : Memref sig .tc .vmem S256x256 .bf16).view.WordExact} {hdst : (rM : Memref sig .tc .vmem S256x256 .bf16).view.WordExact}
    {hsem : DmaTarget.Typed .vmem (.dma recvS.sem) (.remote (Dev.tc n : Thread nD τ) (rM : Memref sig .tc .vmem S256x256 .bf16) (.dma sendS.sem) hsc)}
    {α : Type} {Q : α → sProp 𝕄} {k : PUnit → Prog (TpuEff nD τ sig (Elt F) Λ₀ .tc) α}
    (fp : Buf (Elt F) ((rM : Memref sig .tc .vmem S256x256 .bf16).view.loc (peer c : Thread nD τ))) (W : Waits sig Unit) :
    iprop(cellInv ER (sched m ρ) (K (c, 1)) (sendCell c) ∗ cellInv ER (sched m ρ) (K (peer c, 2)) (recvCell (peer c))
        ∗ sPts c (sent m ρ c) ∗ rPts (peer c) fp
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc n : Thread nD τ) rM (.dma sendS.sem) hsc) (.dma recvS.sem) hsrc hdst hsem) k) Q) := by
  subst hn
  unfold sPts rPts
  exact Rounds.wp_send_pointsTo 𝒱₀ ER (sched m ρ) (c : Thread nD τ) none (κ₁ := K (c, 1)) (κ₂ := K (peer c, 2))
    (r₁ := 0) (r₂ := 0) (d₁ := ()) (d₂ := ()) (fd := fp)
    (by rw [duties_send]; exact Finset.mem_singleton_self _) (by rw [duties_recv]; exact Finset.mem_singleton_self _)
    () () N rfl (amount_send m ρ c ()) (amount_recv m ρ (peer c) ()) 0 (by rw [zero_add]) (W := W)
    (by rw [payload_send]; exact BI.Entails.refl _)
    (by rw [payload_recv]; unfold recvPay rPts; rw [copied_eq, landed, peer_peer])

set_option maxHeartbeats 1000000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  simp only [dev1_eq c]
  unfold bodyPre ghost invs owns
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%fs0, Hs⟩, ⟨%fr0, Hr⟩⟩,
    Ho, ⟨%d0, %g0, %hg0, Hx⟩, ⟨%d1, %g1, %hg1, Hout⟩⟩, Hk⟩
  have hx : g0 = xstg m ρ c := (show g0 = _ from hg0).trans (by unfold Dat.before; rw [if_pos (fetch_0 t₀)]; rfl)
  subst hx
  unfold Dat.owesAt Pipeline.owesWithin
  icases Ho with ⟨%W, %hW, HO⟩
  rw [show (dats m ρ 0 c).owed t₀.castSucc = O₀ c from rfl]
  unfold O₀ sPts rPts
  have hmw := mayWait_bar (F := F) c
  -- the signal, the loads, the store into the send buffer, the barrier wait
  set_option sl_exec.maxSteps 5 in sl_exec
  rw [stored_eq]
  -- the copy into the peer's receive buffer
  iapply (wp_copy_to_peer m ρ K c _ (dev2_eq c) HatB_pay1_v _) $$ [Hs HatB_pay1 HO HtS HtVP]
  · isplitr; · iexact HIsnd
    isplitr; · iexact HIrcvP
    isplitl [Hs]; · unfold sPts sent; iexact Hs
    isplitl [HatB_pay1]; · unfold rPts; iexact HatB_pay1
    isplitl [HO]; · iexact HO
    isplitl [HtS]; · iexact HtS
    isplitr; · iexact HrS
    isplitl [HtVP]; · iexact HtVP
    iexact HrVP
  iintro ⟨HcS, HO⟩
  -- the receive wait, the loads, the add and store, the send wait
  sl_exec
  rw [outstored_eq, read_landed]
  -- the two own cells close: their counters at zero are the device's again
  imod (Rounds.cell_close ER (sched m ρ) (Set.mem_univ (K (c, 1))) (fun h => h) (R := 0 + 1) (duties_later m ρ (sendCell c))) $$ [HatS] with HzS
  · isplitr; · iexact HIsnd
    iexact HatS
  imod (Rounds.cell_close ER (sched m ρ) (Set.mem_univ (K (c, 2))) (fun h => h) (R := 0 + 1) (duties_later m ρ (recvCell c))) $$ [HatV] with HzV
  · isplitr; · iexact HIrcv
    iexact HatV
  rw [wp_ret]; imodintro
  iapply Hk
  unfold bodyPost Φ₁ Dat.owesAt Pipeline.owesWithin owns
  rw [show (dats m ρ 0 c).owed t₀.succ = 0 from rfl]
  isplitl [HatS_pay1 HatV_pay1 HzS HzV]
  · isplitl [HatS_pay1]; · iexists _; unfold sPts; iexact HatS_pay1
    isplitl [HatV_pay1]; · iexists _; unfold rPts; iexact HatV_pay1
    isplitl [HzS]; · iexact HzS
    iexact HzV
  isplitl [HO]
  · iexists (insert (SemLoc.dma sendS.sem, ()) (insert (SemLoc.dma recvS.sem, ()) (insert (SemLoc.reg barS, ()) W)))
    isplitr; · ipureintro; exact fun _ _ => Or.inl trivial
    iexact HO
  isplitl [Hx]
  · iexists _; isplitr
    swap
    · iexact Hx
    · ipureintro; rfl
  iexists _; isplitr
  swap
  · iexact Hout
  · ipureintro; rfl

end Body

end Cert.Kernel.Exchange

end
-- ==== Proof.Kernel.Launch.lean ====
/-
  The launch: every device's three cells allocated under one update, the duty tokens dealt to the devices that pay
  them (a barrier token and a receive token go to the peer, a send token stays), the launch credit counted (each
  barrier cell is owed one unit and each receive cell one copy's credit, both by the peer), and the run of the
  whole mesh with every array after the run named.
-/
import proofs.«900390_g7700000000000391_dist_rs_v7x_xyz2x2x2_x_m256_n256_bf16_1_alg».proof.Proof.Kernel.Body

noncomputable section

namespace Cert.Kernel.Exchange

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

set_option maxRecDepth 4000 in
def bodyPre' (c : Dev nD) : sProp 𝕄 :=
  iprop(Φ₀ m ρ c ∗ (dats m ρ 0 c).owesAt () t₀.castSucc
    ∗ (∃ d, owns (c : Thread nD τ) (xM : Memref sig .tc .vmem S1x256x512 .f32) fullShare ((dats m ρ 0 c).before (0 : Fin 2) t₀ d))
    ∗ (∃ d, owns (c : Thread nD τ) (oM : Memref sig .tc .vmem S256x256 .f32) fullShare ((dats m ρ 0 c).before (1 : Fin 2) t₀ d)))

set_option maxRecDepth 4000 in
/-- The pipeline's body obligation on device `c`. -/
theorem body_obligation (c : Dev nD) : BodyObligation (dats (F := F) m ρ 0 c) (defs₀ (F := F)) 𝒱₀ () Set.univ := fun t => by
  rw [fin_N t]
  rw [bigSep_W, bigSep_W]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hrest⟩, Hs, Hr⟩, Ho, Hx, Hout⟩
  iapply (sound_body m ρ K c fun _ => bodyPost m ρ c)
  unfold bodyPre
  isplitr []
  · isplitl [Hg Hrest Hs Hr]
    · isplitl [Hg]; · iexact Hg
      icases Hrest with ⟨H1, H2, H3⟩
      isplitl [H1]; · iexact H1
      isplitl [H2]; · iexact H2
      isplitl [H3]; · iexact H3
      isplitl [Hs]; · iexact Hs
      iexact Hr
    isplitl [Ho]; · iexact Ho
    isplitl [Hx] <;> iassumption
  · iintro H; iexact H

/-! ## The cells and tokens the launch element holds -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xCells : Finset (GSem nD τ sig) := Finset.univ.map ⟨kcell, kcell_injective⟩

/-- Each cell has the one duty of round 0: its token as minted. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def xToks : Finset (GSem nD τ sig × ℕ × Unit) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (sched m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_x : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 3 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin3]; rfl
  iintro HX
  imod (Rounds.fund ER (sched m ρ) xCells xToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (sched m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (sched m ρ) (K ck) (kcell ck) : sProp 𝕄)) ⊢ cellInv ER (sched m ρ) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties it pays — its peer's barrier duty, its
    peer's receive duty, its own send duty. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear (F := F) c) ⊢ G' m ρ c := by
  unfold records linear payToks G' ghost invs
  iintro ⟨⟨#HI, #HR⟩, ⟨HaB, HaS, HaV⟩, HtBP, HtVP, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

/-- The tokens dealt across the x axis: a barrier token and a receive token to the peer, the send token kept. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv flip (fun c : Dev nD => (dutyTok ER (barCell c) 0 () : sProp 𝕄)),
    bigSep_univ_equiv flip (fun c : Dev nD => (dutyTok ER (recvCell c) 0 () : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (sched m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} : Iff (recvCell a = recvCell b) (a = b) :=
  ⟨fun h => Fin.ext (congrArg (fun g : GSem nD τ sig => g.1.1.val) h), fun h => h ▸ rfl⟩

/-- What device `d` owes device `c`'s barrier cell: a unit if it is `c`'s peer. -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

/-- What device `d` owes device `c`'s receive cell: the copy's credit if it is `c`'s peer. -/
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c, Finset.sum_ite_eq' Finset.univ (peer c) fun _ => 1,
    if_pos (Finset.mem_univ _)]

theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hs0⟩, ⟨%g, Hr0⟩⟩
  isplitl [Hs]; · iexact Hs
  isplitl [Hs0]
  · iexists f; rw [sPts_eq]; iexact Hs0
  · iexists g; rw [rPts_eq]; iexact Hr0

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁
  iintro ⟨⟨%f, Hs⟩, ⟨%g, Hr⟩, HzS, HzV⟩
  isplitr; · iempintro
  isplitl [HzS HzV]
  · isplitl [HzS] <;> iassumption
  isplitl [Hs]
  · iexists f; rw [← sPts_eq]; iexact Hs
  · iexists g; rw [← rPts_eq]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of @main — the eight kernels pairing across the x axis on the barrier semaphore, then exchanging column
    halves — terminates, and every final state has each window's array at the proof data's final contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_x m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

end Cert.Kernel.Exchange

end
-- ==== Proof.Kernel.Final.lean ====
/-
  The arrays after the run: the argument's array is never written; the result's array, written back whole at the one
  grid point, holds what the body left — the kept columns plus the columns received. The run with every result named,
  and the frame as that run with the values dropped.
-/
import proofs.«900390_g7700000000000391_dist_rs_v7x_xyz2x2x2_x_m256_n256_bf16_1_alg».proof.Proof.Kernel.Launch

noncomputable section

namespace Cert.Kernel.Exchange

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The argument's array after the run holds what it held. -/
theorem finalA_x (c : Dev nD) : finalA m ρ c (0 : Fin 2) = m ((c : Thread nD τ).loc main_arg0) :=
  (dats (F := F) m ρ 0 c).arrAt_in (0 : Fin 2) rfl _

/-- The result window's block is the whole array: reading the array through it reads the array. -/
theorem read_blk_out (c : Dev nD) (f : (main_v1 : Ref sig .tc).ty.Contents (Elt F)) :
    ((cfg0.win (1 : Fin 2)).blk t₀).view.read (Elt F) f = f :=
  Memref.read_access_unit_zero (Elt F) main_v1 (funext fun a => Nat.zero_mul _) _ f

/-- The result's array after the run holds the device's result. -/
theorem finalA_out (c : Dev nD) : finalA m ρ c (1 : Fin 2) = outAt m ρ c := by
  have h := (dats (F := F) m ρ 0 c).arrAt_succ (1 : Fin 2) t₀
  rw [if_pos (flush0_1 t₀)] at h
  refine (show finalA m ρ c (1 : Fin 2) = _ from h).trans ?_
  rw [← read_blk_out c (((cfg0.win (1 : Fin 2)).blk t₀).view.write (Elt F) _ _ Finset.univ), View.read_write_univ]
  rfl

/-- On the compiled mesh, for any float values, from any memory with zero counters: every weakly fair execution
    terminates, each device's result array ends at its kept columns plus the columns it received, and the
    argument arrays end unchanged. -/
theorem run : θ_run defs (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)) :=
  (θ_run defs _ _).mono (fun r h c => ⟨(h c (1 : Fin 2)).trans (finalA_out m ρ c), (h c (0 : Fin 2)).trans (finalA_x m ρ c)⟩)
    (run_main m ρ)

end Cert.Kernel.Exchange

end
-- ==== Proof.KernelIdeal.Proto.lean ====
/-
  The reduce-scatter exchange on the mesh x=2, y=2, z=2, as a protocol over semaphore cells.

  Device `c` and its peer `peer c` (the device whose x coordinate is flipped, `(c + 4) mod 8`) hold the two
  halves x[0], x[1] of the argument. Each device keeps the column half its own x coordinate names and sends the
  other column half, rounded to bf16, into the peer's receive buffer; the result is the kept half plus the half
  received. Three cells per device, one round each, one duty each:
  * the barrier cell: one unit, paid by the peer's signal, which hands over the peer's receive buffer and the
    fact that the peer's receive cell is at round 0 (what a copy into that buffer needs);
  * the send cell: the copy's credit, paid when the send buffer has been read; it hands the send buffer back;
  * the receive cell: the copy's credit, paid by the peer's copy; it hands over the receive buffer holding the
    peer's rounded half.
  A device waits on its barrier cell (level 1) while it still owes the peer's receive cell (level 2): the only
  wait made while owing, and it is below what is owed.
-/
import proofs.«900390_g7700000000000391_dist_rs_v7x_xyz2x2x2_x_m256_n256_bf16_1_alg».proof.Proof.Gen.KernelIdeal
import proofs.«900390_g7700000000000391_dist_rs_v7x_xyz2x2x2_x_m256_n256_bf16_1_alg».proof.Proof.Gen.KernelIdeal.Skeleton
import proofs.«900390_g7700000000000391_dist_rs_v7x_xyz2x2x2_x_m256_n256_bf16_1_alg».proof.Proof.Gen.KernelIdeal.Launch
import proofs.«900390_g7700000000000391_dist_rs_v7x_xyz2x2x2_x_m256_n256_bf16_1_alg».proof.Proof.Gen.KernelIdeal.Points
import proofs.«900390_g7700000000000391_dist_rs_v7x_xyz2x2x2_x_m256_n256_bf16_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the exchange's own -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The peer: the device across the x axis -/

def peer (c : Dev nD) : Dev nD := ⟨(c.val + 4) % 8, Nat.mod_lt _ (by decide)⟩

theorem peer_peer (c : Dev nD) : peer (peer c) = c := by revert c; decide
theorem peer_ne (c : Dev nD) : peer c ≠ c := by revert c; decide

/-- Both device ids the body computes (the signal's and the copy's) are the peer. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

def flip : Dev nD ≃ Dev nD := ⟨peer, peer, peer_peer, peer_peer⟩

/-! ## The memrefs and cells -/

abbrev xM : Memref sig .tc .vmem S1x256x512 .f32 := Memref.whole cc0_stg0_0
abbrev oM : Memref sig .tc .vmem S256x256 .f32 := Memref.whole cc0_stg1_0
abbrev sM : Memref sig .tc .vmem S256x256 .bf16 := Memref.whole cc0_scratch0
abbrev rM : Memref sig .tc .vmem S256x256 .bf16 := Memref.whole cc0_scratch1

abbrev barS : Sem sig := (SemArray.scalar (sig.barrier 0 rfl) : Sems sig S_).sem
abbrev sendS : DmaSems sig S_ := cc0_scratch2
abbrev recvS : DmaSems sig S_ := cc0_scratch3

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores as the launch indexes them: send, receive; -/
abbrev osem : Fin 2 → SemLoc sig := fun | 0 => .dma sendS.sem | 1 => .dma recvS.sem
/-- all three of the exchange: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (rM : Memref sig .tc .vmem S256x256 .bf16).view.dmaCredit
theorem N_pos : 0 < N := View.dmaCredit_pos _ (by decide)

/-! ## Contents -/

/-- Device `c`'s half of the argument, as staged. -/
def xstg (c : Dev nD) : (cc0_stg0_0 : Ref sig .tc).ty.Contents (Elt F) :=
  (win0_0.blk (0 : Fin 1)).view.read (Elt F) ((s₀ m ρ).mem ((c : Thread nD τ).loc main_arg0))

/-- The columns a device sends (the half its peer keeps) and the columns it keeps. -/
abbrev rSend (c : Dev nD) : Rect S1x256x512 := Rect.unit (s := S1x256x512) (k0_off1 c) S1x256x256.size (k0_off1_inb c)
abbrev rKeep (c : Dev nD) : Rect S1x256x512 := Rect.unit (s := S1x256x512) (k0_off2 c) S1x256x256.size (k0_off2_inb c)

/-- What device `c` puts in its send buffer: the sent columns of its half, rounded. -/
def sent (c : Dev nD) : (cc0_scratch0 : Ref sig .tc).ty.Contents (Elt F) :=
  k0_pay2 ((xM : Memref sig .tc .vmem S1x256x512 .f32).view.readAt (Elt F) (rSend c).toLoadRect (xstg m ρ c))

/-- What lands in device `c`'s receive buffer: what its peer sent. -/
def landed (c : Dev nD) : Buf (Elt F) ((rM : Memref sig .tc .vmem S256x256 .bf16).view.loc (c : Thread nD τ)) := sent m ρ (peer c)

/-- The result on device `c`: the kept columns of its half plus what landed. -/
def outAt (c : Dev nD) : (cc0_stg1_0 : Ref sig .tc).ty.Contents (Elt F) :=
  k0_pay1 ((xM : Memref sig .tc .vmem S1x256x512 .f32).view.readAt (Elt F) (rKeep c).toLoadRect (xstg m ρ c)) (landed m ρ c)

def sPts (c : Dev nD) (f : Buf (Elt F) ((sM : Memref sig .tc .vmem S256x256 .bf16).view.loc (c : Thread nD τ))) : sProp 𝕄 :=
  (sM : Memref sig .tc .vmem S256x256 .bf16).view.loc (c : Thread nD τ) ↦[(sM : Memref sig .tc .vmem S256x256 .bf16).view.set]{fullShare} f
def rPts (c : Dev nD) (f : Buf (Elt F) ((rM : Memref sig .tc .vmem S256x256 .bf16).view.loc (c : Thread nD τ))) : sProp 𝕄 :=
  (rM : Memref sig .tc .vmem S256x256 .bf16).view.loc (c : Thread nD τ) ↦[(rM : Memref sig .tc .vmem S256x256 .bf16).view.set]{fullShare} f

instance sPts_storable (c : Dev nD) (f) : BI.Storable (upEmb : UEmb _ 𝕄) (sPts (F := F) c f) := by unfold sPts; infer_instance
instance rPts_storable (c : Dev nD) (f) : BI.Storable (upEmb : UEmb _ 𝕄) (rPts (F := F) c f) := by unfold rPts; infer_instance

theorem sPts_eq (c : Dev nD) (f : Buf (Elt F) ((c : Thread nD τ).loc cc0_scratch0)) :
    sPts c f = (((c : Thread nD τ).loc cc0_scratch0) ↦{fullShare} f : sProp 𝕄) := by unfold sPts; rw [View.set_whole]
theorem rPts_eq (c : Dev nD) (f : Buf (Elt F) ((c : Thread nD τ).loc cc0_scratch1)) :
    rPts c f = (((c : Thread nD τ).loc cc0_scratch1) ↦{fullShare} f : sProp 𝕄) := by unfold rPts; rw [View.set_whole]

/-- A whole-buffer copy overwrites the destination with the source. -/
theorem copied_eq (c : Dev nD) (fd : Buf (Elt F) ((rM : Memref sig .tc .vmem S256x256 .bf16).view.loc (c : Thread nD τ)))
    (fs : (cc0_scratch0 : Ref sig .tc).ty.Contents (Elt F)) :
    (rM : Memref sig .tc .vmem S256x256 .bf16).view.write (Elt F) fd ((sM : Memref sig .tc .vmem S256x256 .bf16).view.read (Elt F) fs) Finset.univ = fs := by
  show (View.whole cc0_scratch1).write (Elt F) fd ((View.whole cc0_scratch0).read (Elt F) fs) Finset.univ = fs
  rw [View.read_whole]
  exact View.write_whole_univ _ _ _

/-! ## The schedule -/

/-- What device `p`'s signal hands its peer: `p`'s receive buffer, and that `p`'s receive cell is at round 0
    (what a copy into that buffer needs). A barrier cell's payload is this of its owner's peer. -/
def barPay (p : Dev nD) : sProp 𝕄 := iprop((∃ f, rPts p f) ∗ reached ER (recvCell p) 0)
def recvPay (c : Dev nD) : sProp 𝕄 := rPts c (landed m ρ c)
def sendPay (c : Dev nD) : sProp 𝕄 := sPts c (sent m ρ c)

abbrev IsCell (g : GSem nD τ sig) : Prop := g.1.2 = .tc ∧ (g.2 = .reg barS ∨ g.2 = .dma sendS.sem ∨ g.2 = .dma recvS.sem)

/-- One round, one duty per cell: a barrier cell one unit, a send or receive cell the copy's credit. -/
def sched : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay (peer g.1.1)
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m ρ).payload g r d) := by
  show BI.Storable upEmb (if g.2 = .reg barS then barPay (peer g.1.1) else if g.2 = .dma recvS.sem then recvPay m ρ g.1.1
    else if g.2 = .dma sendS.sem then sendPay m ρ g.1.1 else iprop(emp))
  unfold barPay recvPay sendPay
  (repeat' split) <;> infer_instance

section Tables
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (sched (F := F) m ρ).duties (barCell c) 0 = {()} := by dsimp only [sched]; exact if_pos ⟨rfl, rfl, .inl rfl⟩
theorem duties_send : (sched (F := F) m ρ).duties (sendCell c) 0 = {()} := by dsimp only [sched]; exact if_pos ⟨rfl, rfl, .inr (.inl rfl)⟩
theorem duties_recv : (sched (F := F) m ρ).duties (recvCell c) 0 = {()} := by dsimp only [sched]; exact if_pos ⟨rfl, rfl, .inr (.inr rfl)⟩
theorem duties_later (g : GSem nD τ sig) : ∀ r, 1 ≤ r → (sched (F := F) m ρ).duties g r = ∅ :=
  fun r hr => by dsimp only [sched]; rw [if_neg fun h => by omega]

theorem amount_bar (d : Unit) : (sched (F := F) m ρ).amount (barCell c) 0 d = 1 := by dsimp only [sched]; exact if_pos rfl
theorem amount_send (d : Unit) : (sched (F := F) m ρ).amount (sendCell c) 0 d = N := by dsimp only [sched]; exact if_neg send_ne_bar
theorem amount_recv (d : Unit) : (sched (F := F) m ρ).amount (recvCell c) 0 d = N := by dsimp only [sched]; exact if_neg recv_ne_bar

theorem expect_bar : (sched (F := F) m ρ).expect (barCell c) 0 = 1 := by
  unfold Schedule.expect Schedule.amountOf; rw [duties_bar, Finset.sum_singleton, amount_bar]
theorem expect_send : (sched (F := F) m ρ).expect (sendCell c) 0 = N := by
  unfold Schedule.expect Schedule.amountOf; rw [duties_send, Finset.sum_singleton, amount_send]
theorem expect_recv : (sched (F := F) m ρ).expect (recvCell c) 0 = N := by
  unfold Schedule.expect Schedule.amountOf; rw [duties_recv, Finset.sum_singleton, amount_recv]

theorem payload_bar (d : Unit) : (sched (F := F) m ρ).payload (barCell c) 0 d = barPay (peer c) := by dsimp only [sched]; rw [if_pos rfl]
theorem payload_send (d : Unit) : (sched (F := F) m ρ).payload (sendCell c) 0 d = sendPay m ρ c := by
  dsimp only [sched]; rw [if_neg send_ne_bar, if_neg send_ne_recv, if_pos rfl]
theorem payload_recv (d : Unit) : (sched (F := F) m ρ).payload (recvCell c) 0 d = recvPay m ρ c := by
  dsimp only [sched]; rw [if_neg recv_ne_bar, if_pos rfl]

theorem rest_bar : bigSep ((sched (F := F) m ρ).duties (barCell c) 0 \ ∅) (fun d => (sched (F := F) m ρ).payload (barCell c) 0 d) = barPay (peer c) := by
  rw [Finset.sdiff_empty, duties_bar, bigSep_singleton, payload_bar]
theorem rest_send : bigSep ((sched (F := F) m ρ).duties (sendCell c) 0 \ ∅) (fun d => (sched (F := F) m ρ).payload (sendCell c) 0 d) = sendPay m ρ c := by
  rw [Finset.sdiff_empty, duties_send, bigSep_singleton, payload_send]
theorem rest_recv : bigSep ((sched (F := F) m ρ).duties (recvCell c) 0 \ ∅) (fun d => (sched (F := F) m ρ).payload (recvCell c) 0 d) = recvPay m ρ c := by
  rw [Finset.sdiff_empty, duties_recv, bigSep_singleton, payload_recv]

end Tables

/-! ## What each device owes at launch; the levels -/

/-- Device `c` owes its peer's receive cell the copy's credit and its peer's barrier cell one unit (the signal, made
    first, is the last summand). -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

/-- A wait on a staging semaphore (level 0) is below everything a device can owe. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

/-- At its barrier wait a device owes only its peer's receive credit: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The ghost state a device starts from, and the pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The invariants device `c`'s body opens, at the names `K` the launch allocated: its own three cells, its peer's
    barrier cell (its signal) and its peer's receive cell (its copy). -/
def invs (K : Dev nD × Fin 3 → ℕ) (c : Dev nD) : sProp 𝕄 :=
  iprop(cellInv ER (sched m ρ) (K (c, 0)) (barCell c) ∗ cellInv ER (sched m ρ) (K (c, 1)) (sendCell c) ∗ cellInv ER (sched m ρ) (K (c, 2)) (recvCell c)
    ∗ cellInv ER (sched m ρ) (K (peer c, 0)) (barCell (peer c)) ∗ cellInv ER (sched m ρ) (K (peer c, 2)) (recvCell (peer c)))

instance invs_persistent (K : Dev nD × Fin 3 → ℕ) (c : Dev nD) : BI.Persistent (invs m ρ K c) := by unfold invs; infer_instance

/-- The invariants; the device's positions at round 0 of its three cells; round 0 reached on the cells it pays and on its
    own send and receive cells; the three duty tokens it pays with. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What a body starts from: the ghost state at some names, the credit for the two cells others pay, the levels. -/
def start (c : Dev nD) : sProp 𝕄 :=
  iprop((∃ K, ghost m ρ K c) ∗ cred (tallyAt (barCell c) () 1) ∗ cred (tallyAt (recvCell c) () N) ∗ levAts L lv)

def Φ₀ (c : Dev nD) : sProp 𝕄 := iprop(start m ρ c ∗ (∃ f, sPts c f) ∗ (∃ f, rPts c f))
/-- After the point: the two scratch buffers, and the two own cells closed at zero. -/
def Φ₁ (c : Dev nD) : sProp 𝕄 := iprop((∃ f, sPts c f) ∗ (∃ f, rPts c f) ∗ semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdeal.Exchange

end
-- ==== Proof.KernelIdeal.Body.lean ====
/-
  One device's body, at a symbolic device `c`: signal the peer's barrier cell (handing over the own receive buffer),
  round the sent columns into the send buffer, wait for the peer's signal (the peer's receive buffer comes with it),
  copy the send buffer into the peer's receive buffer, wait for the peer's copy (the receive buffer now holds the
  peer's rounded columns), add them to the kept columns and store, wait for the own copy's source to be read.
-/
import proofs.«900390_g7700000000000391_dist_rs_v7x_xyz2x2x2_x_m256_n256_bf16_1_alg».proof.Proof.KernelIdeal.Proto

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 3 → ℕ)

def bodyPre (c : Dev nD) : sProp 𝕄 :=
  iprop((ghost m ρ K c ∗ cred (tallyAt (barCell c) () 1) ∗ cred (tallyAt (recvCell c) () N) ∗ levAts L lv ∗ (∃ f, sPts c f) ∗ (∃ f, rPts c f))
    ∗ (dats m ρ 0 c).owesAt () t₀.castSucc
    ∗ (∃ d, owns (c : Thread nD τ) (xM : Memref sig .tc .vmem S1x256x512 .f32) fullShare ((dats m ρ 0 c).before (0 : Fin 2) t₀ d))
    ∗ (∃ d, owns (c : Thread nD τ) (oM : Memref sig .tc .vmem S256x256 .f32) fullShare ((dats m ρ 0 c).before (1 : Fin 2) t₀ d)))

def bodyPost (c : Dev nD) : sProp 𝕄 :=
  iprop(Φ₁ (F := F) c ∗ (dats m ρ 0 c).owesAt () t₀.succ ∗ owns (c : Thread nD τ) (xM : Memref sig .tc .vmem S1x256x512 .f32) fullShare (xstg m ρ c)
    ∗ owns (c : Thread nD τ) (oM : Memref sig .tc .vmem S256x256 .f32) fullShare (outAt m ρ c))

theorem barPay_eq (p : Dev nD) : (barPay (F := F) p) = iprop((∃ f, rPts p f) ∗ reached ER (recvCell p) 0) := rfl
theorem recvPay_eq (c : Dev nD) : recvPay m ρ c = rPts c (landed m ρ c) := rfl
theorem sendPay_eq (c : Dev nD) : sendPay m ρ c = sPts c (sent m ρ c) := rfl
theorem sPts_def (c : Dev nD) (f) : sPts (F := F) c f =
  ((sM : Memref sig .tc .vmem S256x256 .bf16).view.loc (c : Thread nD τ) ↦[(sM : Memref sig .tc .vmem S256x256 .bf16).view.set]{fullShare} f : sProp 𝕄) := rfl
theorem rPts_def (c : Dev nD) (f) : rPts (F := F) c f =
  ((rM : Memref sig .tc .vmem S256x256 .bf16).view.loc (c : Thread nD τ) ↦[(rM : Memref sig .tc .vmem S256x256 .bf16).view.set]{fullShare} f : sProp 𝕄) := rfl

attribute [local sl_rounds] duties_bar duties_send duties_recv amount_bar amount_send amount_recv expect_bar expect_send expect_recv
  payload_bar payload_send payload_recv barPay_eq recvPay_eq sendPay_eq sPts_def rPts_def peer_peer

abbrev r0 : Rect S256x256 := Rect.unit (s := S256x256) ![0, 0] S256x256.size inb_S256x256_S256x256_0_0

theorem hz : (![0, 0] : Fin 2 → Nat) = fun _ => 0 := funext fun a => by fin_cases a <;> rfl

/-- One store through the whole send buffer leaves what was stored. -/
theorem write_send (f w : (cc0_scratch0 : Ref sig .tc).ty.Contents (Elt F)) :
    ((sM : Memref sig .tc .vmem S256x256 .bf16).access r0 : View sig .tc _ _ _).write (Elt F) f w Finset.univ = w :=
  Memref.write_access_unit_zero_univ (Elt F) cc0_scratch0 hz _ f w
theorem write_out (f w : (cc0_stg1_0 : Ref sig .tc).ty.Contents (Elt F)) :
    ((oM : Memref sig .tc .vmem S256x256 .f32).access r0 : View sig .tc _ _ _).write (Elt F) f w Finset.univ = w :=
  Memref.write_access_unit_zero_univ (Elt F) cc0_stg1_0 hz _ f w
/-- One store through the whole result buffer leaves what was stored. -/
theorem outstored_eq (f w : (cc0_stg1_0 : Ref sig .tc).ty.Contents (Elt F)) :
    (oM : Memref sig .tc .vmem S256x256 .f32).view.writes (Elt F) f [⟨r0, w⟩] = w :=
  write_out f w
/-- A load of the whole receive buffer reads what landed. -/
theorem read_landed (c : Dev nD) :
    (rM : Memref sig .tc .vmem S256x256 .bf16).view.readAt (Elt F) r0.toLoadRect (landed m ρ c) = landed m ρ c :=
  Memref.readAt_unit_zero (Elt F) cc0_scratch1 hz _ _
theorem stored_eq (c : Dev nD) (f : Buf (Elt F) ((sM : Memref sig .tc .vmem S256x256 .bf16).view.loc (c : Thread nD τ)))
    (w : (cc0_scratch0 : Ref sig .tc).ty.Contents (Elt F)) :
    (sM : Memref sig .tc .vmem S256x256 .bf16).view.writes (Elt F) f [⟨r0, w⟩] = w :=
  write_send f w

/-- The copy, addressed to a device `n` that is the peer: the send buffer (holding the rounded columns) goes to the
    send cell's duty and comes back with it; the peer's receive buffer, overwritten with those columns, goes to the
    peer's receive cell's duty; the device's debt to that cell is paid and it is credited its own send cell. -/
theorem wp_copy_to_peer (c n : Dev nD) (hn : n = peer c)
    {hsc : (rM : Memref sig (Dev.tc n : Thread nD τ).2.kind .vmem S256x256 .bf16).view.ref.isScScratch = false}
    {hsrc : (sM : Memref sig .tc .vmem S256x256 .bf16).view.WordExact} {hdst : (rM : Memref sig .tc .vmem S256x256 .bf16).view.WordExact}
    {hsem : DmaTarget.Typed .vmem (.dma recvS.sem) (.remote (Dev.tc n : Thread nD τ) (rM : Memref sig .tc .vmem S256x256 .bf16) (.dma sendS.sem) hsc)}
    {α : Type} {Q : α → sProp 𝕄} {k : PUnit → Prog (TpuEff nD τ sig (Elt F) Λ₀ .tc) α}
    (fp : Buf (Elt F) ((rM : Memref sig .tc .vmem S256x256 .bf16).view.loc (peer c : Thread nD τ))) (W : Waits sig Unit) :
    iprop(cellInv ER (sched m ρ) (K (c, 1)) (sendCell c) ∗ cellInv ER (sched m ρ) (K (peer c, 2)) (recvCell (peer c))
        ∗ sPts c (sent m ρ c) ∗ rPts (peer c) fp
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc n : Thread nD τ) rM (.dma sendS.sem) hsc) (.dma recvS.sem) hsrc hdst hsem) k) Q) := by
  subst hn
  unfold sPts rPts
  exact Rounds.wp_send_pointsTo 𝒱₀ ER (sched m ρ) (c : Thread nD τ) none (κ₁ := K (c, 1)) (κ₂ := K (peer c, 2))
    (r₁ := 0) (r₂ := 0) (d₁ := ()) (d₂ := ()) (fd := fp)
    (by rw [duties_send]; exact Finset.mem_singleton_self _) (by rw [duties_recv]; exact Finset.mem_singleton_self _)
    () () N rfl (amount_send m ρ c ()) (amount_recv m ρ (peer c) ()) 0 (by rw [zero_add]) (W := W)
    (by rw [payload_send]; exact BI.Entails.refl _)
    (by rw [payload_recv]; unfold recvPay rPts; rw [copied_eq, landed, peer_peer])

set_option maxHeartbeats 1000000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  simp only [dev1_eq c]
  unfold bodyPre ghost invs owns
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%fs0, Hs⟩, ⟨%fr0, Hr⟩⟩,
    Ho, ⟨%d0, %g0, %hg0, Hx⟩, ⟨%d1, %g1, %hg1, Hout⟩⟩, Hk⟩
  have hx : g0 = xstg m ρ c := (show g0 = _ from hg0).trans (by unfold Dat.before; rw [if_pos (fetch_0 t₀)]; rfl)
  subst hx
  unfold Dat.owesAt Pipeline.owesWithin
  icases Ho with ⟨%W, %hW, HO⟩
  rw [show (dats m ρ 0 c).owed t₀.castSucc = O₀ c from rfl]
  unfold O₀ sPts rPts
  have hmw := mayWait_bar (F := F) c
  -- the signal, the loads, the store into the send buffer, the barrier wait
  set_option sl_exec.maxSteps 5 in sl_exec
  rw [stored_eq]
  -- the copy into the peer's receive buffer
  iapply (wp_copy_to_peer m ρ K c _ (dev2_eq c) HatB_pay1_v _) $$ [Hs HatB_pay1 HO HtS HtVP]
  · isplitr; · iexact HIsnd
    isplitr; · iexact HIrcvP
    isplitl [Hs]; · unfold sPts sent; iexact Hs
    isplitl [HatB_pay1]; · unfold rPts; iexact HatB_pay1
    isplitl [HO]; · iexact HO
    isplitl [HtS]; · iexact HtS
    isplitr; · iexact HrS
    isplitl [HtVP]; · iexact HtVP
    iexact HrVP
  iintro ⟨HcS, HO⟩
  -- the receive wait, the loads, the add and store, the send wait
  sl_exec
  rw [outstored_eq, read_landed]
  -- the two own cells close: their counters at zero are the device's again
  imod (Rounds.cell_close ER (sched m ρ) (Set.mem_univ (K (c, 1))) (fun h => h) (R := 0 + 1) (duties_later m ρ (sendCell c))) $$ [HatS] with HzS
  · isplitr; · iexact HIsnd
    iexact HatS
  imod (Rounds.cell_close ER (sched m ρ) (Set.mem_univ (K (c, 2))) (fun h => h) (R := 0 + 1) (duties_later m ρ (recvCell c))) $$ [HatV] with HzV
  · isplitr; · iexact HIrcv
    iexact HatV
  rw [wp_ret]; imodintro
  iapply Hk
  unfold bodyPost Φ₁ Dat.owesAt Pipeline.owesWithin owns
  rw [show (dats m ρ 0 c).owed t₀.succ = 0 from rfl]
  isplitl [HatS_pay1 HatV_pay1 HzS HzV]
  · isplitl [HatS_pay1]; · iexists _; unfold sPts; iexact HatS_pay1
    isplitl [HatV_pay1]; · iexists _; unfold rPts; iexact HatV_pay1
    isplitl [HzS]; · iexact HzS
    iexact HzV
  isplitl [HO]
  · iexists (insert (SemLoc.dma sendS.sem, ()) (insert (SemLoc.dma recvS.sem, ()) (insert (SemLoc.reg barS, ()) W)))
    isplitr; · ipureintro; exact fun _ _ => Or.inl trivial
    iexact HO
  isplitl [Hx]
  · iexists _; isplitr
    swap
    · iexact Hx
    · ipureintro; rfl
  iexists _; isplitr
  swap
  · iexact Hout
  · ipureintro; rfl

end Body

end Cert.KernelIdeal.Exchange

end
-- ==== Proof.KernelIdeal.Launch.lean ====
/-
  The launch: every device's three cells allocated under one update, the duty tokens dealt to the devices that pay
  them (a barrier token and a receive token go to the peer, a send token stays), the launch credit counted (each
  barrier cell is owed one unit and each receive cell one copy's credit, both by the peer), and the run of the
  whole mesh with every array after the run named.
-/
import proofs.«900390_g7700000000000391_dist_rs_v7x_xyz2x2x2_x_m256_n256_bf16_1_alg».proof.Proof.KernelIdeal.Body

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

set_option maxRecDepth 4000 in
def bodyPre' (c : Dev nD) : sProp 𝕄 :=
  iprop(Φ₀ m ρ c ∗ (dats m ρ 0 c).owesAt () t₀.castSucc
    ∗ (∃ d, owns (c : Thread nD τ) (xM : Memref sig .tc .vmem S1x256x512 .f32) fullShare ((dats m ρ 0 c).before (0 : Fin 2) t₀ d))
    ∗ (∃ d, owns (c : Thread nD τ) (oM : Memref sig .tc .vmem S256x256 .f32) fullShare ((dats m ρ 0 c).before (1 : Fin 2) t₀ d)))

set_option maxRecDepth 4000 in
/-- The pipeline's body obligation on device `c`. -/
theorem body_obligation (c : Dev nD) : BodyObligation (dats (F := F) m ρ 0 c) (defs₀ (F := F)) 𝒱₀ () Set.univ := fun t => by
  rw [fin_N t]
  rw [bigSep_W, bigSep_W]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hrest⟩, Hs, Hr⟩, Ho, Hx, Hout⟩
  iapply (sound_body m ρ K c fun _ => bodyPost m ρ c)
  unfold bodyPre
  isplitr []
  · isplitl [Hg Hrest Hs Hr]
    · isplitl [Hg]; · iexact Hg
      icases Hrest with ⟨H1, H2, H3⟩
      isplitl [H1]; · iexact H1
      isplitl [H2]; · iexact H2
      isplitl [H3]; · iexact H3
      isplitl [Hs]; · iexact Hs
      iexact Hr
    isplitl [Ho]; · iexact Ho
    isplitl [Hx] <;> iassumption
  · iintro H; iexact H

/-! ## The cells and tokens the launch element holds -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xCells : Finset (GSem nD τ sig) := Finset.univ.map ⟨kcell, kcell_injective⟩

/-- Each cell has the one duty of round 0: its token as minted. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def xToks : Finset (GSem nD τ sig × ℕ × Unit) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (sched m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_x : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 3 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin3]; rfl
  iintro HX
  imod (Rounds.fund ER (sched m ρ) xCells xToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (sched m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (sched m ρ) (K ck) (kcell ck) : sProp 𝕄)) ⊢ cellInv ER (sched m ρ) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties it pays — its peer's barrier duty, its
    peer's receive duty, its own send duty. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear (F := F) c) ⊢ G' m ρ c := by
  unfold records linear payToks G' ghost invs
  iintro ⟨⟨#HI, #HR⟩, ⟨HaB, HaS, HaV⟩, HtBP, HtVP, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

/-- The tokens dealt across the x axis: a barrier token and a receive token to the peer, the send token kept. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv flip (fun c : Dev nD => (dutyTok ER (barCell c) 0 () : sProp 𝕄)),
    bigSep_univ_equiv flip (fun c : Dev nD => (dutyTok ER (recvCell c) 0 () : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (sched m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} : Iff (recvCell a = recvCell b) (a = b) :=
  ⟨fun h => Fin.ext (congrArg (fun g : GSem nD τ sig => g.1.1.val) h), fun h => h ▸ rfl⟩

/-- What device `d` owes device `c`'s barrier cell: a unit if it is `c`'s peer. -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

/-- What device `d` owes device `c`'s receive cell: the copy's credit if it is `c`'s peer. -/
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c, Finset.sum_ite_eq' Finset.univ (peer c) fun _ => 1,
    if_pos (Finset.mem_univ _)]

theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hs0⟩, ⟨%g, Hr0⟩⟩
  isplitl [Hs]; · iexact Hs
  isplitl [Hs0]
  · iexists f; rw [sPts_eq]; iexact Hs0
  · iexists g; rw [rPts_eq]; iexact Hr0

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁
  iintro ⟨⟨%f, Hs⟩, ⟨%g, Hr⟩, HzS, HzV⟩
  isplitr; · iempintro
  isplitl [HzS HzV]
  · isplitl [HzS] <;> iassumption
  isplitl [Hs]
  · iexists f; rw [← sPts_eq]; iexact Hs
  · iexists g; rw [← rPts_eq]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of @main — the eight kernels pairing across the x axis on the barrier semaphore, then exchanging column
    halves — terminates, and every final state has each window's array at the proof data's final contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_x m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

end Cert.KernelIdeal.Exchange

end
-- ==== Proof.KernelIdeal.Final.lean ====
/-
  The arrays after the run: the argument's array is never written; the result's array, written back whole at the one
  grid point, holds what the body left — the kept columns plus the columns received. The run with every result named,
  and the frame as that run with the values dropped.
-/
import proofs.«900390_g7700000000000391_dist_rs_v7x_xyz2x2x2_x_m256_n256_bf16_1_alg».proof.Proof.KernelIdeal.Launch

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The argument's array after the run holds what it held. -/
theorem finalA_x (c : Dev nD) : finalA m ρ c (0 : Fin 2) = m ((c : Thread nD τ).loc main_arg0) :=
  (dats (F := F) m ρ 0 c).arrAt_in (0 : Fin 2) rfl _

/-- The result window's block is the whole array: reading the array through it reads the array. -/
theorem read_blk_out (c : Dev nD) (f : (main_v1 : Ref sig .tc).ty.Contents (Elt F)) :
    ((cfg0.win (1 : Fin 2)).blk t₀).view.read (Elt F) f = f :=
  Memref.read_access_unit_zero (Elt F) main_v1 (funext fun a => Nat.zero_mul _) _ f

/-- The result's array after the run holds the device's result. -/
theorem finalA_out (c : Dev nD) : finalA m ρ c (1 : Fin 2) = outAt m ρ c := by
  have h := (dats (F := F) m ρ 0 c).arrAt_succ (1 : Fin 2) t₀
  rw [if_pos (flush0_1 t₀)] at h
  refine (show finalA m ρ c (1 : Fin 2) = _ from h).trans ?_
  rw [← read_blk_out c (((cfg0.win (1 : Fin 2)).blk t₀).view.write (Elt F) _ _ Finset.univ), View.read_write_univ]
  rfl

/-- On the compiled mesh, for any float values, from any memory with zero counters: every weakly fair execution
    terminates, each device's result array ends at its kept columns plus the columns it received, and the
    argument arrays end unchanged. -/
theorem run : θ_run defs (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)) :=
  (θ_run defs _ _).mono (fun r h c => ⟨(h c (1 : Fin 2)).trans (finalA_out m ρ c), (h c (0 : Fin 2)).trans (finalA_x m ρ c)⟩)
    (run_main m ρ)

end Cert.KernelIdeal.Exchange

end
-- ==== Proof.Bridge.lean ====
/-
  The value at the ideal instance. On device `c`, with x coordinate `c / 4`, entry (p, q) of the result is
      x[c / 4][p, 256 (c / 4) + q]  +  x[1 - c / 4][p, 256 (c / 4) + q]
  (the kept column half of the device's own slab plus the same columns of its peer's slab, the rounding to bf16 and
  back being the identity on extended reals), and entry (p, 256 (c / 4) + q) of the reference's sum over the leading
  axis is 0 + (x[0][…] + x[1][…]). The two agree by commutativity of + on the extended reals and 0 + a = a: no
  finiteness is used.
-/
import proofs.«900390_g7700000000000391_dist_rs_v7x_xyz2x2x2_x_m256_n256_bf16_1_alg».proof.Defs
import proofs.«900390_g7700000000000391_dist_rs_v7x_xyz2x2x2_x_m256_n256_bf16_1_alg».proof.Proof.KernelIdeal.Final
import proofs.«900390_g7700000000000391_dist_rs_v7x_xyz2x2x2_x_m256_n256_bf16_1_alg».proof.Proof.Gen.ReferenceIdeal.Read
import Idealize.ShloMosaic.Lib.ValueIdx
import Idealize.ShloMosaic.Lib.ValueLayout
import Idealize.ShloMosaic.Lib.Pipeline.Value
import Idealize.ShloMosaic.Lib.Layout
import Idealize.ShloMosaic.PureOps.Ideal.Laws

noncomputable section

namespace Cert.Bridge

open Cert.KernelIdeal Cert.KernelIdeal.Gen Cert.KernelIdeal.Exchange
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The kernel's contents read at an index -/

/-- The argument's window is the whole array: what is staged is the array. -/
theorem xstg_eq (c : Dev nD) : xstg m ρ c = m ((c : Thread nD τ).loc main_arg0) :=
  Memref.read_access_unit_zero (Elt Ideal) main_arg0 (funext fun a => Nat.zero_mul _) _ _

/-- What a device sends, at (p, q): its slab at row p, column q of the sent half (rounding is the identity). -/
theorem sent_apply (c : Dev nD) (p q : Fin 256) :
    sent m ρ c (ix2 p q) = m ((c : Thread nD τ).loc main_arg0) ((rSend c).toLoadRect.idx (ix3 (0 : Fin 1) p q)) := by
  unfold sent k0_pay2
  refine (congrFun (shapeCast_self _ _) _).trans ?_
  show shapeCast S256x256 (View.readAt (Elt Ideal) xM.view (rSend c).toLoadRect (xstg m ρ c)) _ (ix2 p q) = _
  refine (shapeCast_1ab_ab_apply _ _ p q).trans ?_
  rw [xstg_eq]; rfl

/-- The result at (p, q): the slab at row p, column q of the kept half, plus what the peer sent there. -/
theorem outAt_apply (c : Dev nD) (p q : Fin 256) :
    (show EReal from outAt m ρ c (ix2 p q))
      = (show EReal from m ((c : Thread nD τ).loc main_arg0) ((rKeep c).toLoadRect.idx (ix3 (0 : Fin 1) p q)))
        + (show EReal from sent m ρ (peer c) (ix2 p q)) := by
  unfold outAt k0_pay1 landed
  refine (addf_apply _ _ _).trans ?_
  congr 1
  refine (shapeCast_1ab_ab_apply _ _ p q).trans ?_
  rw [xstg_eq]; rfl

/-! ## A device's slab as its block of the whole argument; its result as its block of the reference's -/

/-- A device's coordinate on the x axis is its id divided by four; an uncut dimension is one block. -/
theorem meshLin_x (c : Dev nD) : Layout.meshLin [2, 2, 2] c.val [0] = c.val / 4 := by revert c; decide
theorem meshLin_nil (c : Dev nD) : Layout.meshLin [2, 2, 2] c.val [] = 0 := rfl

section Blocks
variable (X : (⟨3, ![2, 256, 512]⟩ : Shape).Idx → EReal)

/-- Row p, column q of the kept half of device `c`'s slab is the whole argument at (c / 4, p, 256 (c / 4) + q). -/
theorem blk_kept (c : Dev nD) (p q : Fin 256) (a : Fin 2) (r : Fin 512) (ha : a.val = c.val / 4) (hr : r.val = 256 * (c.val / 4) + q.val) :
    (Layout.blockN ⟨3, ![1, 256, 512]⟩ ⟨3, ![2, 256, 512]⟩ (Layout.meshBlock [2, 2, 2] ![[0], [], []] c) X)
        ((rKeep c).toLoadRect.idx (ix3 (0 : Fin 1) p q))
      = X (ix3 a p r) := by
  have h0 : k0_off2 c 0 = 0 := by rw [k0_off2_eq]; rfl
  have h1 : k0_off2 c 1 = 0 := by rw [k0_off2_eq]; rfl
  have h2 : k0_off2 c 2 = 256 * (c.val / 4) := by rw [k0_off2_eq]; rfl
  have hj := meshLin_x c
  have hn := meshLin_nil c
  refine congrArg X (funext fun b => Fin.ext ?_)
  match b with
  | ⟨0, _⟩ => show Layout.meshLin [2, 2, 2] c.val [0] * 1 + (k0_off2 c 0 + 1 * 0) = a.val; omega
  | ⟨1, _⟩ => show Layout.meshLin [2, 2, 2] c.val [] * 256 + (k0_off2 c 1 + 1 * p.val) = p.val; omega
  | ⟨2, _⟩ => show Layout.meshLin [2, 2, 2] c.val [] * 512 + (k0_off2 c 2 + 1 * q.val) = r.val; omega

/-- Row p, column q of the sent half of device `d`'s slab is the whole argument at (d / 4, p, 256 - 256 (d / 4) + q). -/
theorem blk_sent (d : Dev nD) (p q : Fin 256) (a : Fin 2) (r : Fin 512) (ha : a.val = d.val / 4) (hr : r.val = 256 - 256 * (d.val / 4) + q.val) :
    (Layout.blockN ⟨3, ![1, 256, 512]⟩ ⟨3, ![2, 256, 512]⟩ (Layout.meshBlock [2, 2, 2] ![[0], [], []] d) X)
        ((rSend d).toLoadRect.idx (ix3 (0 : Fin 1) p q))
      = X (ix3 a p r) := by
  have h0 : k0_off1 d 0 = 0 := by rw [k0_off1_eq]; rfl
  have h1 : k0_off1 d 1 = 0 := by rw [k0_off1_eq]; rfl
  have h2 : k0_off1 d 2 = 256 - 256 * (d.val / 4) := by rw [k0_off1_eq]; rfl
  have hj := meshLin_x d
  have hn := meshLin_nil d
  refine congrArg X (funext fun b => Fin.ext ?_)
  match b with
  | ⟨0, _⟩ => show Layout.meshLin [2, 2, 2] d.val [0] * 1 + (k0_off1 d 0 + 1 * 0) = a.val; omega
  | ⟨1, _⟩ => show Layout.meshLin [2, 2, 2] d.val [] * 256 + (k0_off1 d 1 + 1 * p.val) = p.val; omega
  | ⟨2, _⟩ => show Layout.meshLin [2, 2, 2] d.val [] * 512 + (k0_off1 d 2 + 1 * q.val) = r.val; omega

/-- Entry (p, q) of device `c`'s block of the reference's result is 0 plus the two slabs' entries at (p, 256 (c / 4) + q). -/
theorem blk_ref (c : Dev nD) (p q : Fin 256) (r : Fin 512) (hr : r.val = 256 * (c.val / 4) + q.val) :
    (Layout.blockN ⟨2, ![256, 256]⟩ ⟨2, ![256, 512]⟩ (Layout.meshBlock [2, 2, 2] ![[], [0]] c)
        (Cert.ReferenceIdeal.Read.val_main_v0 (F := Ideal) X)) (ix2 p q)
      = (0 : EReal) + (X (ix3 (0 : Fin 2) p r) + X (ix3 (1 : Fin 2) p r)) := by
  have hj := meshLin_x c
  have hn := meshLin_nil c
  rw [Layout.blockN_apply, Cert.ReferenceIdeal.Read.val_main_v0_apply, Fin.sum_univ_two]
  congr 1
  · exact Ideal.ofBits_zero_f32
  · congr 1 <;> refine congrArg X (funext fun b => Fin.ext ?_)
    · match b with
      | ⟨0, _⟩ => rfl
      | ⟨1, _⟩ => show Layout.meshLin [2, 2, 2] c.val [] * 256 + p.val = p.val; omega
      | ⟨2, _⟩ => show Layout.meshLin [2, 2, 2] c.val [0] * 256 + q.val = r.val; omega
    · match b with
      | ⟨0, _⟩ => rfl
      | ⟨1, _⟩ => show Layout.meshLin [2, 2, 2] c.val [] * 256 + p.val = p.val; omega
      | ⟨2, _⟩ => show Layout.meshLin [2, 2, 2] c.val [0] * 256 + q.val = r.val; omega

end Blocks

/-! ## The two sides are one function -/

/-- A device and its peer sit at the two x coordinates. -/
theorem coords (c : Dev nD) : (c.val / 4 = 0 ∧ (peer c).val / 4 = 1) ∨ (c.val / 4 = 1 ∧ (peer c).val / 4 = 0) := by
  revert c; decide

/-- From memories where every device's slab is its block of the whole argument `X`, each device's result is its block
    of the reference's sum over the leading axis. -/
theorem out_is_block (X : (⟨3, ![2, 256, 512]⟩ : Shape).Idx → EReal)
    (hag : ∀ c : Dev nD, m ((c : Thread nD τ).loc main_arg0)
      = Layout.blockN ⟨3, ![1, 256, 512]⟩ ⟨3, ![2, 256, 512]⟩ (Layout.meshBlock [2, 2, 2] ![[0], [], []] c) X) (c : Dev nD) :
    outAt m ρ c = Layout.blockN ⟨2, ![256, 256]⟩ ⟨2, ![256, 512]⟩ (Layout.meshBlock [2, 2, 2] ![[], [0]] c)
      (Cert.ReferenceIdeal.Read.val_main_v0 (F := Ideal) X) := by
  funext i
  obtain ⟨p, q, rfl⟩ : ∃ (p : Fin 256) (q : Fin 256), i = ix2 p q := ⟨i 0, i 1, eq_ix2 i⟩
  have hc : c.val < 8 := c.isLt
  refine (outAt_apply m ρ c p q).trans ?_
  rw [sent_apply, hag c, hag (peer c)]
  rcases coords c with ⟨hx, hy⟩ | ⟨hx, hy⟩
  · have hr : (⟨256 * (c.val / 4) + q.val, by omega⟩ : Fin 512).val = 256 * (c.val / 4) + q.val := rfl
    rw [blk_kept X c p q (0 : Fin 2) ⟨256 * (c.val / 4) + q.val, by omega⟩ hx.symm hr,
      blk_sent X (peer c) p q (1 : Fin 2) ⟨256 * (c.val / 4) + q.val, by omega⟩ hy.symm (by show 256 * (c.val / 4) + q.val = _; omega),
      blk_ref X c p q ⟨256 * (c.val / 4) + q.val, by omega⟩ hr]
    exact (zero_add _).symm
  · have hr : (⟨256 * (c.val / 4) + q.val, by omega⟩ : Fin 512).val = 256 * (c.val / 4) + q.val := rfl
    rw [blk_kept X c p q (1 : Fin 2) ⟨256 * (c.val / 4) + q.val, by omega⟩ hx.symm hr,
      blk_sent X (peer c) p q (0 : Fin 2) ⟨256 * (c.val / 4) + q.val, by omega⟩ hy.symm (by show 256 * (c.val / 4) + q.val = _; omega),
      blk_ref X c p q ⟨256 * (c.val / 4) + q.val, by omega⟩ hr]
    rw [zero_add]; exact add_comm (G := EReal) _ _

end Cert.Bridge

end
-- ==== Proof.lean ====
/-
  The claim for the two-device exchange on the mesh x=2, y=2, z=2.

  Each device holds one slab x[c / 4] of the argument (256 rows, 512 columns). It keeps the column half its x coordinate
  names, sends the other half — rounded to bf16 — to the device across the x axis, and adds what it receives to what it
  kept: its result is block c / 4, along the columns, of the sum of the two slabs, which is what the reference computes
  on one device as the sum over the leading axis.

  * The three frames. Both kernels (the printed one and its idealization, one text read at two float instances) run by
    the same argument: the exchange as a protocol over three semaphore cells per device (Proof/…/Proto.lean), one
    device's body at a symbolic device (Body.lean), the launch of all eight (Launch.lean), and the final arrays read
    back (Final.lean); the frame is that run with the values dropped. The reference's frame is its run.
  * preserves: the idealization rewrote nothing, the conjunct is `True`.
  * algebraic: at the ideal instance rounding is the identity, so entry (p, q) of device c's result is
    x[c / 4][p, 256 (c / 4) + q] + x[1 - c / 4][p, 256 (c / 4) + q], and the reference's entry there is
    0 + (x[0][…] + x[1][…]): equal by 0 + a = a and commutativity of + on the extended reals (Bridge.lean). The
    precondition is not used.
-/
import proofs.«900390_g7700000000000391_dist_rs_v7x_xyz2x2x2_x_m256_n256_bf16_1_alg».proof.Defs
import proofs.«900390_g7700000000000391_dist_rs_v7x_xyz2x2x2_x_m256_n256_bf16_1_alg».proof.Proof.Gen.Kernel
import proofs.«900390_g7700000000000391_dist_rs_v7x_xyz2x2x2_x_m256_n256_bf16_1_alg».proof.Proof.Gen.KernelIdeal
import proofs.«900390_g7700000000000391_dist_rs_v7x_xyz2x2x2_x_m256_n256_bf16_1_alg».proof.Proof.Gen.ReferenceIdeal
import proofs.«900390_g7700000000000391_dist_rs_v7x_xyz2x2x2_x_m256_n256_bf16_1_alg».proof.Proof.Gen.Pre_finite_inputs_Kernel
import proofs.«900390_g7700000000000391_dist_rs_v7x_xyz2x2x2_x_m256_n256_bf16_1_alg».proof.Proof.Gen.Pre_finite_inputs_ReferenceIdeal
import proofs.«900390_g7700000000000391_dist_rs_v7x_xyz2x2x2_x_m256_n256_bf16_1_alg».proof.Proof.Gen.ReferenceIdeal.Read
import proofs.«900390_g7700000000000391_dist_rs_v7x_xyz2x2x2_x_m256_n256_bf16_1_alg».proof.Proof.Kernel.Final
import proofs.«900390_g7700000000000391_dist_rs_v7x_xyz2x2x2_x_m256_n256_bf16_1_alg».proof.Proof.KernelIdeal.Final
import proofs.«900390_g7700000000000391_dist_rs_v7x_xyz2x2x2_x_m256_n256_bf16_1_alg».proof.Proof.Bridge
import Idealize.ShloMosaic.Adequacy
import Idealize.ShloMosaic.Init

noncomputable section

namespace Cert.Proof

open Idealize.ShloMosaic Idealize.ShloMosaic.TcCoe Idealize.SL.Sem

/-- The printed kernel, at the word level: the run with the values dropped. -/
theorem frame_k : Cert.frame_Kernel := fun m ρ _ =>
  (θ_run Cert.Kernel.defs _ _).mono (fun _ h c => (h c).2) (Cert.Kernel.Exchange.run (F := Bits) m ρ)

/-- The idealized kernel: the same run at the ideal instance. -/
theorem frame_ki : Cert.frame_KernelIdeal := fun m ρ _ =>
  (θ_run Cert.KernelIdeal.defs _ _).mono (fun _ h c => (h c).2) (Cert.KernelIdeal.Exchange.run (F := Ideal) m ρ)

/-- The reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Each device's result is its block of the reference's sum over the leading axis. -/
theorem algebraic : Cert.algebraic_KernelIdeal_ReferenceIdeal := by
  intro m ρ m' ρ' _ hagree
  refine ⟨Cert.ReferenceIdeal.Read.val_main_v0 (F := Ideal)
    (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨(h c).1.trans ?_, (h c).2⟩)
      (Cert.KernelIdeal.Exchange.run (F := Ideal) m ρ)
    exact Cert.Bridge.out_is_block m ρ _ hagree c
  · exact (θ_run Cert.ReferenceIdeal.defs _ _).mono
      (fun _ h => ⟨(h 0).1.trans (Cert.ReferenceIdeal.Read.val_main_v0_eq _), (h 0).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, preserves, algebraic⟩

end Cert.Proof

end
